-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S1x1 : Shape := ⟨2, ![1, 1]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 19
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x1, .f32⟩
  | .local _ .vmem, ⟨7, _⟩ => ⟨S1x1, .f32⟩
  | .local _ .vmem, ⟨8, _⟩ => ⟨S256x4096, .f32⟩
  | .local _ .vmem, ⟨9, _⟩ => ⟨S256x4096, .f32⟩
  | .local _ .vmem, ⟨10, _⟩ => ⟨S1x1, .f32⟩
  | .local _ .vmem, ⟨11, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem2_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S1x1_S1x1_0_0 : ∀ a, (![0, 0] : Fin 2 → Nat) a + S1x1.size a ≤ S1x1.size a
  h_S1x1 : 0 < S1x1.numel
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  shapeCasts_S1x1_S_ : S1x1.ShapeCasts S_
  shapeCasts_S_S1x1 : S_.ShapeCasts S1x1
  inpos_S1x1_p0_0 : ∀ a, (![0, 0] : Fin 2 → Nat) a < S1x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S_ : Shape := ⟨0, ![]⟩
abbrev S16777216 : Shape := ⟨1, ![16777216]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16777216, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  shapeCasts_S4096x4096_S16777216 : S4096x4096.ShapeCasts S16777216
  reducesTo_S16777216_S_d0 : S16777216.ReducesTo [0] S_
  bcast_S_S16777216 : S_.BroadcastsInDim S16777216 (![] : Fin 0 → Fin S16777216.rank)

variable [Facts₀]

class Facts : Prop extends Facts₀ where

variable [Facts]
-- ==== Proof.KernelRun.lean ====
/-
  The idealized kernel's run with its result named. Every weakly fair execution of the program terminates; at the end
  each unscoped buffer holds what the fold through the program's four segments — first kernel, host operations, second
  kernel, host operations — leaves there, so the result buffer holds the last segment's value and the three argument
  arrays are as launched.
-/
import proofs.«114329_j48825188221141_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.RunValue

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.LossSums.lean ====
/-
  The loss both programs compute, as one function of the three argument arrays on the extended reals, and the two
  regroupings of a total over a 4096 × 4096 array that the programs use.

  The value is  (z + Σᵢ |rᵢ − tᵢ|) / N  +  c · ((z + Σᵢ |gᵢ − μ|) / N)  with  μ = (z + Σᵢ gᵢ) / N,  every sum over ALL
  4096 · 4096 entries. One program takes each total block by block (sixteen blocks of 256 full rows, a running sum
  across the blocks), the other takes it over the array flattened to 16 777 216 entries. Both are the same finite sum
  in a commutative monoid, so nothing here needs the entries to be finite.
-/
import Idealize.ShloMosaic.Lib.ValueIdx
import Idealize.ShloMosaic.PureOps.Ideal
import proofs.«114329_j48825188221141_1_alg».proof.Proof.LibBlockSums

noncomputable section

namespace LossSums

open Idealize.ShloMosaic Idealize.ShloMosaic.ValueIdx
open scoped BigOperators

/-- The argument arrays' shape, one block of 256 full rows, and the flattened array. -/
abbrev Whole : Shape := ⟨2, ![4096, 4096]⟩
abbrev Rows256 : Shape := ⟨2, ![256, 4096]⟩
abbrev Flat : Shape := ⟨1, ![16777216]⟩

/-- Row `r` of block `t` is row `256 t + r` of the array. -/
def rowOf (t : Fin 16) (r : Fin 256) : Fin 4096 :=
  ⟨t.val * 256 + r.val, by have := t.isLt; have := r.isLt; omega⟩

/-- Entry `j` of block `t`, as an entry of the array. -/
def inBlock (t : Fin 16) (j : Rows256.Idx) : Whole.Idx := ix2 (rowOf t (j 0)) (j 1)

/-- A total over the array is the sum over the sixteen row blocks of the totals inside each block. -/
theorem sum_by_blocks {M : Type*} [AddCommMonoid M] (f : Whole.Idx → M) :
    ∑ i, f i = ∑ t : Fin 16, ∑ j : Rows256.Idx, f (inBlock t j) := by
  rw [sum_idx2 f, BlockSums.sum_blocks (m := 16) (n := 256) rfl rowOf (fun _ _ => rfl)]
  refine Finset.sum_congr rfl fun t _ => ?_
  rw [sum_idx2 (fun j : Rows256.Idx => f (inBlock t j))]
  rfl

/-- Flat position `k` is entry `(k / 4096, k % 4096)`: any map with these coordinates is a bijection from the flat
    positions onto the entries, so a total over the flattened array is the total over the array. -/
theorem sum_flat {M : Type*} [AddCommMonoid M] (u : Flat.Idx → Whole.Idx)
    (h0 : ∀ k, (u k 0).val = (k 0).val / 4096) (h1 : ∀ k, (u k 1).val = (k 0).val % 4096) (f : Whole.Idx → M) :
    ∑ k, f (u k) = ∑ i, f i := by
  refine Function.Bijective.sum_comp ⟨fun a b hab => ?_, fun i => ?_⟩ f
  · have e0 := congrArg (fun i : Whole.Idx => (i 0).val) hab
    have e1 := congrArg (fun i : Whole.Idx => (i 1).val) hab
    simp only [h0, h1] at e0 e1
    have e : (a 0).val = (b 0).val := by omega
    funext d
    match d with
    | ⟨0, _⟩ => exact Fin.ext e
  · have hi0 : (i 0).val < 4096 := (i 0).isLt
    have hi1 : (i 1).val < 4096 := (i 1).isLt
    refine ⟨ix1 ⟨(i 0).val * 4096 + (i 1).val, by omega⟩, ?_⟩
    funext d
    match d with
    | ⟨0, _⟩ => exact Fin.ext ((h0 _).trans (by show ((i 0).val * 4096 + (i 1).val) / 4096 = (i 0).val; omega))
    | ⟨1, _⟩ => exact Fin.ext ((h1 _).trans (by show ((i 0).val * 4096 + (i 1).val) % 4096 = (i 1).val; omega))

/-- A running sum that starts at `z + B 0` and adds `B (n+1)` at step `n+1` is `z` plus the partial sum. -/
theorem running_sum {M : Type*} [AddCommMonoid M] (z : M) (B ch : ℕ → M) (h0 : ch 0 = z + B 0)
    (hs : ∀ n, ch (n + 1) = ch n + B (n + 1)) : ∀ n, ch n = z + ∑ k ∈ Finset.range (n + 1), B k
  | 0 => by rw [h0, Finset.sum_range_one]
  | n + 1 => by rw [hs, running_sum z B ch h0 hs n, Finset.sum_range_succ _ (n + 1), add_assoc]

/-- The total of |a − b| over an index type. -/
def absDev {ι : Type*} [Fintype ι] (a b : ι → EReal) : EReal := ∑ i, max (a i - b i) (-(a i - b i))

/-- The loss: the mean absolute difference of `r` and `t`, plus `c` times the mean absolute deviation of `g` from its own
    mean; `z` is the value every sum starts from and `N` the divisor of the three means. -/
def loss (z N c : EReal) (r g t : Whole.Idx → EReal) : EReal :=
  Ideal.div (z + absDev r t) N
    + c * Ideal.div (z + absDev g (fun _ => Ideal.div (z + ∑ i, g i) N)) N

end LossSums

end
-- ==== Proof.KernelBody.lean ====
/-
  What the two kernel bodies add to their running totals, at the exact values.

  Each body takes a block of 256 full rows, reduces it along the lanes of every row, then along the rows, and adds the
  result to a one-entry accumulator. The two reductions in sequence total the whole block: Σ over the 256 rows of the
  Σ over the 4096 lanes is the sum over all entries of the block. So the first body's two payloads are
  acc + Σⱼ |aⱼ − bⱼ| and acc + Σⱼ gⱼ, and the second body's is acc + Σⱼ |gⱼ − μ| with μ the one entry of its
  second operand.
-/
import proofs.«114329_j48825188221141_1_alg».proof.Proof.Gen.KernelIdeal.Skeleton
import proofs.«114329_j48825188221141_1_alg».proof.Proof.LossSums
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- The lane reduction of a block followed by the reduction of the resulting column totals the block: the entry of the
    one-entry result is the sum over the rows of the sum over each row's lanes, which is the sum over all entries. -/
theorem block_total (x : FVec Ideal S256x4096 .f32) (h1 : S256x4096.Reduces [1] S256) (h0 : S256x1.Reduces [0] S1)
    (c1 : S256.ShapeCasts S256x1) (c0 : S1.ShapeCasts S1x1) (hφ : FKind.Formats .f32)
    (hacc : (0x00000000#32 : BitVec 32) = FKind.add.neutral .f32 hφ) (y : S1x1.Idx) :
    shapeCast S1x1 (multiReduction .add [0] S1
        (shapeCast S256x1 (multiReduction .add [1] S256 x 0x00000000#32 h1 hφ hacc) c1) 0x00000000#32 h0 hφ hacc) c0 y
      = ∑ j : S256x4096.Idx, x j := by
  have hy0 : (y 0).val < 1 := idx2_lt0 y
  have hy1 : (y 1).val < 1 := idx2_lt1 y
  refine (shapeCast_apply _ c0 y (ix1 (0 : Fin 1)) (by
    rewrite [Shape.rowMajor_val_two, Shape.rowMajor_val_one]
    show (0 : ℕ) = (y 0).val * 1 + (y 1).val
    omega)).trans ?_
  refine (Ideal.multiReduction_add_single _ _ h0 hφ hacc (ix1 (0 : Fin 1))).trans ?_
  rw [sum_idx2 x]
  refine Finset.sum_congr rfl fun r _ => ?_
  refine (shapeCast_apply _ c1 _ (ix1 r) (by
    rewrite [Shape.rowMajor_val_two, Shape.rowMajor_val_one]
    show r.val = r.val * 1 + 0
    omega)).trans ?_
  refine (Ideal.multiReduction_add_single x _ h1 hφ hacc (ix1 r)).trans ?_
  refine Finset.sum_congr rfl fun l _ => congrArg x ?_
  funext d
  match d with
  | ⟨0, _⟩ => rfl
  | ⟨1, _⟩ => rfl

/-- The shape all three accumulating payloads share: the accumulator read back, plus the two reductions of a block —
    at the one entry, the accumulator's entry plus the block's total. -/
theorem acc_plus_total (blk : FVec Ideal S256x4096 .f32) (acc : Vec Ideal S1x1 .f32) (y : S1x1.Idx) :
    addf (shapeCast S1x1 acc shapeCasts_S1x1_S1x1)
        (shapeCast S1x1 (multiReduction .add [0] S1
          (shapeCast S256x1 (multiReduction .add [1] S256 blk 0x00000000#32 reduces_S256x4096_S256 (.inl rfl) rfl)
            shapeCasts_S256_S256x1) 0x00000000#32 reduces_S256x1_S1 (.inl rfl) rfl) shapeCasts_S1_S1x1) y
      = acc y + ∑ j : S256x4096.Idx, blk j := by
  show (shapeCast S1x1 acc shapeCasts_S1x1_S1x1) y + _ = _
  rw [shapeCast_self]
  exact congrArg (acc y + ·) (block_total blk _ _ _ _ _ _ y)

/-- The first body's first payload: the accumulator's entry plus the block's total of |a − b|. -/
theorem absdiff_step (a b : Vec Ideal S256x4096 .f32) (acc : Vec Ideal S1x1 .f32) (y : S1x1.Idx) :
    k0_pay3 (F := Ideal) a b acc y = acc y + LossSums.absDev a b :=
  acc_plus_total (absf (subf a b)) acc y

/-- The first body's second payload: the accumulator's entry plus the block's total. -/
theorem total_step (g : Vec Ideal S256x4096 .f32) (acc : Vec Ideal S1x1 .f32) (y : S1x1.Idx) :
    k0_pay4 (F := Ideal) g acc y = acc y + ∑ j : S256x4096.Idx, g j :=
  acc_plus_total g acc y

/-- The one entry of a one-entry vector, extracted. -/
theorem extract_entry (mu : Vec Ideal S1x1 .f32) : extractAt ![0, 0] mu inpos_S1x1_p0_0 = mu (ix2 0 0) := by
  unfold extractAt
  refine congrArg mu ?_
  funext d
  match d with
  | ⟨0, _⟩ => rfl
  | ⟨1, _⟩ => rfl

/-- The second body's payload: the accumulator's entry plus the block's total of |g − μ|, μ the entry of the
    one-entry operand. -/
theorem absdev_step (mu : Vec Ideal S1x1 .f32) (g : Vec Ideal S256x4096 .f32) (acc : Vec Ideal S1x1 .f32) (y : S1x1.Idx) :
    k1_pay2 (F := Ideal) mu g acc y = acc y + LossSums.absDev g (fun _ => mu (ix2 0 0)) := by
  have e : k1_pay2 (F := Ideal) mu g acc y
      = acc y + ∑ j : S256x4096.Idx, (absf (subf g (broadcast S256x4096 (extractAt ![0, 0] mu inpos_S1x1_p0_0)))) j :=
    acc_plus_total _ acc y
  refine e.trans ?_
  rw [extract_entry]
  rfl

end Cert.KernelIdeal.Body

end
-- ==== Proof.Region0.lean ====
/-
  The first kernel's two results. Its sixteen grid points each add one row block's contribution to two one-entry
  accumulators that stay in place from point to point and are written back once, after the last point. The first point
  starts both from the zero word; every later point adds to what the point before left. So after point n the first
  accumulator holds  z + Σ_{k ≤ n} (block k's total of |a − b|)  and the second  z + Σ_{k ≤ n} (block k's total of g),
  by induction on the point, and the two result arrays end at these sums over all sixteen blocks.
-/
import proofs.«114329_j48825188221141_1_alg».proof.Proof.Gen.KernelIdeal.Frame
import proofs.«114329_j48825188221141_1_alg».proof.Proof.KernelBody
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Sums0

open Cert.KernelIdeal Cert.KernelIdeal.Gen

theorem hz : (![0, 0] : Fin 2 → Nat) = fun _ => 0 := funext fun a => by fin_cases a <;> rfl

section AnyValues
variable {F : FTy → Type} [FloatOps F]

/-! ## What one point leaves in each accumulator, as the body's payloads -/

/-- A later point leaves, in the first accumulator holding `xo3`, the |a − b| payload over `xo3`. -/
theorem later_absdiff (c : Dev nD) (i : grid0.Coords) (a1 : Memref sig .tc .vmem S256x4096 .f32) (h1 : a1.IsWhole) (a2 : Memref sig .tc .vmem S256x4096 .f32) (h2 : a2.IsWhole) (a3 : Memref sig .tc .vmem S256x4096 .f32) (h3 : a3.IsWhole) (a4 : Memref sig .tc .vmem S1x1 .f32) (h4 : a4.IsWhole) (a5 : Memref sig .tc .vmem S1x1 .f32) (h5 : a5.IsWhole) (hc : ¬cond0_0 i)
    (x0 x1 x2 : Vec F S256x4096 .f32) (xo3 xo4 : Vec F S1x1 .f32) :
    out0_B_3 c i a1 h1 a2 h2 a3 h3 a4 h4 a5 h5 hc x0 x1 x2 xo3 xo4 = k0_pay3 x0 x1 xo3 := by
  unfold out0_B_3
  rw [View.read_writes_eq_canon _ _ _ (cover0_B_3 c i a1 h1 a2 h2 a3 h3 a4 h4 a5 h5 hc x0 x1 x2 xo3 xo4)]
  unfold kernelRun0_B
  dsimp only
  rw [View.canon_unit_zero hz]
  simp only [View.readAt_eq_ld, h1.read_unread, h2.read_unread, h3.read_unread, h4.read_unread, h5.read_unread,
    View.ld_unit_zero (S := S256x4096) hz, View.ld_unit_zero (S := S1x1) hz]

/-- A later point leaves, in the second accumulator holding `xo4`, the plain-total payload over `xo4`. -/
theorem later_total (c : Dev nD) (i : grid0.Coords) (a1 : Memref sig .tc .vmem S256x4096 .f32) (h1 : a1.IsWhole) (a2 : Memref sig .tc .vmem S256x4096 .f32) (h2 : a2.IsWhole) (a3 : Memref sig .tc .vmem S256x4096 .f32) (h3 : a3.IsWhole) (a4 : Memref sig .tc .vmem S1x1 .f32) (h4 : a4.IsWhole) (a5 : Memref sig .tc .vmem S1x1 .f32) (h5 : a5.IsWhole) (hc : ¬cond0_0 i)
    (x0 x1 x2 : Vec F S256x4096 .f32) (xo3 xo4 : Vec F S1x1 .f32) :
    out0_B_4 c i a1 h1 a2 h2 a3 h3 a4 h4 a5 h5 hc x0 x1 x2 xo3 xo4 = k0_pay4 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  rw [View.canon_unit_zero hz]
  simp only [View.readAt_eq_ld, h1.read_unread, h2.read_unread, h3.read_unread, h4.read_unread, h5.read_unread,
    View.ld_unit_zero (S := S256x4096) hz, View.ld_unit_zero (S := S1x1) hz]

/-- The first point stores the zero block, reads it back and leaves the |a − b| payload over it. -/
theorem first_absdiff (c : Dev nD) (i : grid0.Coords) (a1 : Memref sig .tc .vmem S256x4096 .f32) (h1 : a1.IsWhole) (a2 : Memref sig .tc .vmem S256x4096 .f32) (h2 : a2.IsWhole) (a3 : Memref sig .tc .vmem S256x4096 .f32) (h3 : a3.IsWhole) (a4 : Memref sig .tc .vmem S1x1 .f32) (h4 : a4.IsWhole) (a5 : Memref sig .tc .vmem S1x1 .f32) (h5 : a5.IsWhole) (hc : cond0_0 i)
    (x0 x1 x2 : Vec F S256x4096 .f32) :
    out0_A_3 c i a1 h1 a2 h2 a3 h3 a4 h4 a5 h5 hc x0 x1 x2 = k0_pay3 x0 x1 k0_pay1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S256x4096) hz, View.ld_unit_zero (S := S1x1) hz]

/-- The first point stores the zero block, reads it back and leaves the plain-total payload over it. -/
theorem first_total (c : Dev nD) (i : grid0.Coords) (a1 : Memref sig .tc .vmem S256x4096 .f32) (h1 : a1.IsWhole) (a2 : Memref sig .tc .vmem S256x4096 .f32) (h2 : a2.IsWhole) (a3 : Memref sig .tc .vmem S256x4096 .f32) (h3 : a3.IsWhole) (a4 : Memref sig .tc .vmem S1x1 .f32) (h4 : a4.IsWhole) (a5 : Memref sig .tc .vmem S1x1 .f32) (h5 : a5.IsWhole) (hc : cond0_0 i)
    (x0 x1 x2 : Vec F S256x4096 .f32) :
    out0_A_4 c i a1 h1 a2 h2 a3 h3 a4 h4 a5 h5 hc x0 x1 x2 = k0_pay4 x2 k0_pay2 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S256x4096) hz, View.ld_unit_zero (S := S1x1) hz]

end AnyValues

/-! ## The running totals, at the exact values -/

variable (V : (c : Dev nD) → (b : Ref sig .tc) → Buf (Elt Ideal) ((c : Thread nD τ).loc b))

/-- The value both accumulators start from: the zero word. -/
abbrev z : EReal := (Scalar.ofBits .f32 0x00000000#32 : Ideal .f32)

/-- Block `k`'s total of |a − b| (first and second operand's blocks), and block `k`'s total of the third operand. -/
def absdiffOf (c : Dev nD) (k : ℕ) : EReal :=
  if h : k < cfg0.N then LossSums.absDev (iblk0 V c 0 ⟨k, h⟩ : Vec Ideal S256x4096 .f32) (iblk0 V c 1 ⟨k, h⟩ : Vec Ideal S256x4096 .f32) else 0
def totalOf (c : Dev nD) (k : ℕ) : EReal :=
  if h : k < cfg0.N then ∑ j : S256x4096.Idx, (iblk0 V c 2 ⟨k, h⟩ : Vec Ideal S256x4096 .f32) j else 0

/-- After point `n` the first accumulator's entry is `z` plus the |a − b| totals of blocks 0 … n. -/
theorem absdiff_after (c : Dev nD) : ∀ (n : ℕ) (h : n < cfg0.N) (y : S1x1.Idx),
    (outsAt0 V c n h).1 y = z + ∑ k ∈ Finset.range (n + 1), absdiffOf V c k
  | 0, h, y => by
    let t : Fin cfg0.N := ⟨0, h⟩
    have e := (congrArg Prod.fst (outsAt0_A V c t rfl)).trans
      (first_absdiff c (grid0.coords t) (ms0_0 t) (hs0_0 t) (ms0_1 t) (hs0_1 t) (ms0_2 t) (hs0_2 t) (ms0_3 t) (hs0_3 t) (ms0_4 t) (hs0_4 t) ((hcond0_0 t).mpr rfl) (iblk0 V c 0 t) (iblk0 V c 1 t) (iblk0 V c 2 t))
    refine (congrFun e y).trans ?_
    refine (Body.absdiff_step (iblk0 V c 0 t) (iblk0 V c 1 t) (k0_pay1 (F := Ideal)) y).trans ?_
    rw [Finset.sum_range_one]
    unfold absdiffOf
    rw [dif_pos h]
    all_goals rfl
  | n + 1, h, y => by
    have hN : cfg0.N = 16 := N_0
    let t : Fin cfg0.N := ⟨n + 1, h⟩
    have hB : ¬t.val % 16 = 0 := by show ¬(n + 1) % 16 = 0; omega
    have e := (congrArg Prod.fst (outsAt0_B V c t hB)).trans
      (later_absdiff c (grid0.coords t) (ms0_0 t) (hs0_0 t) (ms0_1 t) (hs0_1 t) (ms0_2 t) (hs0_2 t) (ms0_3 t) (hs0_3 t) (ms0_4 t) (hs0_4 t) (fun hh => hB ((hcond0_0 t).mp hh)) (iblk0 V c 0 t) (iblk0 V c 1 t) (iblk0 V c 2 t)
        (outsAt0 V c (t.val - 1) (Nat.lt_of_le_of_lt (Nat.sub_le _ _) t.isLt)).1 (outsAt0 V c (t.val - 1) (Nat.lt_of_le_of_lt (Nat.sub_le _ _) t.isLt)).2)
    refine (congrFun e y).trans ?_
    refine (Body.absdiff_step (iblk0 V c 0 t) (iblk0 V c 1 t) _ y).trans ?_
    show (outsAt0 V c n _).1 y + _ = _
    rw [absdiff_after c n _ y, Finset.sum_range_succ _ (n + 1), add_assoc]
    congr 2
    unfold absdiffOf
    rw [dif_pos h]
    all_goals rfl

/-- After point `n` the second accumulator's entry is `z` plus the totals of blocks 0 … n. -/
theorem total_after (c : Dev nD) : ∀ (n : ℕ) (h : n < cfg0.N) (y : S1x1.Idx),
    (outsAt0 V c n h).2 y = z + ∑ k ∈ Finset.range (n + 1), totalOf V c k
  | 0, h, y => by
    let t : Fin cfg0.N := ⟨0, h⟩
    have e := (congrArg Prod.snd (outsAt0_A V c t rfl)).trans
      (first_total c (grid0.coords t) (ms0_0 t) (hs0_0 t) (ms0_1 t) (hs0_1 t) (ms0_2 t) (hs0_2 t) (ms0_3 t) (hs0_3 t) (ms0_4 t) (hs0_4 t) ((hcond0_0 t).mpr rfl) (iblk0 V c 0 t) (iblk0 V c 1 t) (iblk0 V c 2 t))
    refine (congrFun e y).trans ?_
    refine (Body.total_step (iblk0 V c 2 t) (k0_pay2 (F := Ideal)) y).trans ?_
    rw [Finset.sum_range_one]
    unfold totalOf
    rw [dif_pos h]
    all_goals rfl
  | n + 1, h, y => by
    have hN : cfg0.N = 16 := N_0
    let t : Fin cfg0.N := ⟨n + 1, h⟩
    have hB : ¬t.val % 16 = 0 := by show ¬(n + 1) % 16 = 0; omega
    have e := (congrArg Prod.snd (outsAt0_B V c t hB)).trans
      (later_total c (grid0.coords t) (ms0_0 t) (hs0_0 t) (ms0_1 t) (hs0_1 t) (ms0_2 t) (hs0_2 t) (ms0_3 t) (hs0_3 t) (ms0_4 t) (hs0_4 t) (fun hh => hB ((hcond0_0 t).mp hh)) (iblk0 V c 0 t) (iblk0 V c 1 t) (iblk0 V c 2 t)
        (outsAt0 V c (t.val - 1) (Nat.lt_of_le_of_lt (Nat.sub_le _ _) t.isLt)).1 (outsAt0 V c (t.val - 1) (Nat.lt_of_le_of_lt (Nat.sub_le _ _) t.isLt)).2)
    refine (congrFun e y).trans ?_
    refine (Body.total_step (iblk0 V c 2 t) _ y).trans ?_
    show (outsAt0 V c n _).2 y + _ = _
    rw [total_after c n _ y, Finset.sum_range_succ _ (n + 1), add_assoc]
    congr 2
    unfold totalOf
    rw [dif_pos h]
    all_goals rfl

/-! ## The result arrays -/

/-- The two result arrays' contents: the one entry at the sum over all sixteen blocks. -/
def absdiffArr (c : Dev nD) : Buf (Elt Ideal) ((c : Thread nD τ).loc main_v0_0) :=
  fun _ => z + ∑ k ∈ Finset.range 16, absdiffOf V c k
def totalArr (c : Dev nD) : Buf (Elt Ideal) ((c : Thread nD τ).loc main_v0_1) :=
  fun _ => z + ∑ k ∈ Finset.range 16, totalOf V c k

/-- The one write-back of this accumulator, at the last point, writes the running total after the last point: the
    window's one block is the whole one-entry array. -/
theorem flushed_3 (c : Dev nD) (t : Fin cfg0.N) (hf : (cfg0.win 3).flush t = true) :
    (dat0 V c).flushed 3 t = ((cfg0.win 3).blk t).view.read (Elt Ideal) (absdiffArr V c) := by
  have hN : cfg0.N = 16 := N_0
  have h15 : t.val = 15 := by have := (flush0_3 t).mp hf; have := t.isLt; omega
  obtain rfl : t = t0_15 := Fin.ext h15
  show (cfg0.win 3).cut (cfg0.grid.coords t0_15) ((dat0 V c).after 3 t0_15) = _
  rw [after0_3]
  have e : (outsAt0 V c t0_15.val t0_15.isLt).1 = absdiffArr V c := funext fun y => absdiff_after V c 15 _ y
  rw [e]
  have hz' : (fun a => win0_3.index t0_15 a * main_v0_0.ty.shape.size a) = fun _ => 0 := funext fun a => by fin_cases a <;> decide
  exact (Memref.read_access_unit_zero (Elt Ideal) main_v0_0 hz' (fun a => by rw [congrFun hz' a]; simp) (absdiffArr V c)).symm

/-- So the array ends holding the total over all sixteen blocks: the last point's write-back covers its one entry. -/
theorem final_3 (c : Dev nD) : (dat0 V c).arrAt 3 cfg0.N = absdiffArr V c :=
  (dat0 V c).arrAt_eq_of_cover 3 (absdiffArr V c) (flushed_3 V c) fun i =>
    ⟨t0_15, (flush0_3 t0_15).mpr rfl, by
      show i ∈ ((View.whole main_v0_0).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (cfg0.grid.coords t0_15) 0
                  rw [show win0_3.index t0_15 0 * win0_3.size 0 = 0 from by decide +kernel, show win0_3.xsize (cfg0.grid.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (cfg0.grid.coords t0_15) 1
                  rw [show win0_3.index t0_15 1 * win0_3.size 1 = 0 from by decide +kernel, show win0_3.xsize (cfg0.grid.coords t0_15) 1 = 1 from by decide +kernel]; omega⟩

/-- The one write-back of this accumulator, at the last point, writes the running total after the last point: the
    window's one block is the whole one-entry array. -/
theorem flushed_4 (c : Dev nD) (t : Fin cfg0.N) (hf : (cfg0.win 4).flush t = true) :
    (dat0 V c).flushed 4 t = ((cfg0.win 4).blk t).view.read (Elt Ideal) (totalArr V c) := by
  have hN : cfg0.N = 16 := N_0
  have h15 : t.val = 15 := by have := (flush0_4 t).mp hf; have := t.isLt; omega
  obtain rfl : t = t0_15 := Fin.ext h15
  show (cfg0.win 4).cut (cfg0.grid.coords t0_15) ((dat0 V c).after 4 t0_15) = _
  rw [after0_4]
  have e : (outsAt0 V c t0_15.val t0_15.isLt).2 = totalArr V c := funext fun y => total_after V c 15 _ y
  rw [e]
  have hz' : (fun a => win0_4.index t0_15 a * main_v0_1.ty.shape.size a) = fun _ => 0 := funext fun a => by fin_cases a <;> decide
  exact (Memref.read_access_unit_zero (Elt Ideal) main_v0_1 hz' (fun a => by rw [congrFun hz' a]; simp) (totalArr V c)).symm

/-- So the array ends holding the total over all sixteen blocks: the last point's write-back covers its one entry. -/
theorem final_4 (c : Dev nD) : (dat0 V c).arrAt 4 cfg0.N = totalArr V c :=
  (dat0 V c).arrAt_eq_of_cover 4 (totalArr V c) (flushed_4 V c) fun i =>
    ⟨t0_15, (flush0_4 t0_15).mpr rfl, by
      show i ∈ ((View.whole main_v0_1).slice (win0_4.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_15 0 * win0_4.size 0 ≤ (i 0 : Nat) ∧ (i 0 : Nat) < win0_4.index t0_15 0 * win0_4.size 0 + win0_4.xsize (cfg0.grid.coords t0_15) 0
                  rw [show win0_4.index t0_15 0 * win0_4.size 0 = 0 from by decide +kernel, show win0_4.xsize (cfg0.grid.coords t0_15) 0 = 1 from by decide +kernel]; omega
      | ⟨1, _⟩ => show win0_4.index t0_15 1 * win0_4.size 1 ≤ (i 1 : Nat) ∧ (i 1 : Nat) < win0_4.index t0_15 1 * win0_4.size 1 + win0_4.xsize (cfg0.grid.coords t0_15) 1
                  rw [show win0_4.index t0_15 1 * win0_4.size 1 = 0 from by decide +kernel, show win0_4.xsize (cfg0.grid.coords t0_15) 1 = 1 from by decide +kernel]; omega⟩

end Cert.KernelIdeal.Sums0

end
-- ==== Proof.Region1.lean ====
/-
  The second kernel's result. Its sixteen grid points each add one row block's total of |g − μ| to a one-entry
  accumulator kept in place and written back once, after the last point; μ is the one entry of the kernel's second
  operand, the same at every point. The first point starts from the zero word. So after point n the accumulator holds
  z + Σ_{k ≤ n} (block k's total of |g − μ|), by induction on the point, and the result array ends at the sum over all
  sixteen blocks.
-/
import proofs.«114329_j48825188221141_1_alg».proof.Proof.Gen.KernelIdeal.Frame
import proofs.«114329_j48825188221141_1_alg».proof.Proof.KernelBody
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Sums1

open Cert.KernelIdeal Cert.KernelIdeal.Gen

theorem hz : (![0, 0] : Fin 2 → Nat) = fun _ => 0 := funext fun a => by fin_cases a <;> rfl

section AnyValues
variable {F : FTy → Type} [FloatOps F]

/-- A later point leaves, in the accumulator holding `xo`, the |g − μ| payload over `xo`. -/
theorem later_absdev (c : Dev nD) (i : grid1.Coords) (a1 : Memref sig .tc .vmem S256x4096 .f32) (h1 : a1.IsWhole) (a2 : Memref sig .tc .vmem S1x1 .f32) (h2 : a2.IsWhole) (a3 : Memref sig .tc .vmem S1x1 .f32) (h3 : a3.IsWhole) (hc : ¬cond1_0 i)
    (x0 : Vec F S256x4096 .f32) (x1 xo : Vec F S1x1 .f32) :
    out1_B_2 c i a1 h1 a2 h2 a3 h3 hc x0 x1 xo = k1_pay2 x1 x0 xo := by
  unfold out1_B_2
  rw [View.read_writes_eq_canon _ _ _ (cover1_B_2 c i a1 h1 a2 h2 a3 h3 hc x0 x1 xo)]
  unfold kernelRun1_B
  dsimp only
  rw [View.canon_unit_zero hz]
  simp only [View.readAt_eq_ld, h1.read_unread, h2.read_unread, h3.read_unread,
    View.ld_unit_zero (S := S256x4096) hz, View.ld_unit_zero (S := S1x1) hz]

/-- The first point stores the zero block, reads it back and leaves the |g − μ| payload over it. -/
theorem first_absdev (c : Dev nD) (i : grid1.Coords) (a1 : Memref sig .tc .vmem S256x4096 .f32) (h1 : a1.IsWhole) (a2 : Memref sig .tc .vmem S1x1 .f32) (h2 : a2.IsWhole) (a3 : Memref sig .tc .vmem S1x1 .f32) (h3 : a3.IsWhole) (hc : cond1_0 i)
    (x0 : Vec F S256x4096 .f32) (x1 : Vec F S1x1 .f32) :
    out1_A_2 c i a1 h1 a2 h2 a3 h3 hc x0 x1 = k1_pay2 x1 x0 k1_pay1 := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S256x4096) hz, View.ld_unit_zero (S := S1x1) hz]

end AnyValues

variable (V : (c : Dev nD) → (b : Ref sig .tc) → Buf (Elt Ideal) ((c : Thread nD τ).loc b))

/-- The value the accumulator starts from: the zero word. -/
abbrev z : EReal := (Scalar.ofBits .f32 0x00000000#32 : Ideal .f32)

/-- Block `k`'s total of |g − μ|, μ the entry of the second operand's block at that point. -/
def absdevOf (c : Dev nD) (k : ℕ) : EReal :=
  if h : k < cfg1.N then LossSums.absDev (iblk1 V c 0 ⟨k, h⟩ : Vec Ideal S256x4096 .f32)
    (fun _ => (iblk1 V c 1 ⟨k, h⟩ : Vec Ideal S1x1 .f32) (ix2 0 0)) else 0

/-- After point `n` the accumulator's entry is `z` plus the |g − μ| totals of blocks 0 … n. -/
theorem absdev_after (c : Dev nD) : ∀ (n : ℕ) (h : n < cfg1.N) (y : S1x1.Idx),
    outsAt1 V c n h y = z + ∑ k ∈ Finset.range (n + 1), absdevOf V c k
  | 0, h, y => by
    let t : Fin cfg1.N := ⟨0, h⟩
    have e := (outsAt1_A V c t rfl).trans
      (first_absdev c (grid1.coords t) (ms1_0 t) (hs1_0 t) (ms1_1 t) (hs1_1 t) (ms1_2 t) (hs1_2 t) ((hcond1_0 t).mpr rfl) (iblk1 V c 0 t) (iblk1 V c 1 t))
    refine (congrFun e y).trans ?_
    refine (Body.absdev_step (iblk1 V c 1 t) (iblk1 V c 0 t) (k1_pay1 (F := Ideal)) y).trans ?_
    rw [Finset.sum_range_one]
    unfold absdevOf
    rw [dif_pos h]
    all_goals rfl
  | n + 1, h, y => by
    have hN : cfg1.N = 16 := N_1
    let t : Fin cfg1.N := ⟨n + 1, h⟩
    have hB : ¬t.val % 16 = 0 := by show ¬(n + 1) % 16 = 0; omega
    have e := (outsAt1_B V c t hB).trans
      (later_absdev c (grid1.coords t) (ms1_0 t) (hs1_0 t) (ms1_1 t) (hs1_1 t) (ms1_2 t) (hs1_2 t) (fun hh => hB ((hcond1_0 t).mp hh)) (iblk1 V c 0 t) (iblk1 V c 1 t)
        (outsAt1 V c (t.val - 1) (Nat.lt_of_le_of_lt (Nat.sub_le _ _) t.isLt)))
    refine (congrFun e y).trans ?_
    refine (Body.absdev_step (iblk1 V c 1 t) (iblk1 V c 0 t) _ y).trans ?_
    show outsAt1 V c n _ y + _ = _
    rw [absdev_after c n _ y, Finset.sum_range_succ _ (n + 1), add_assoc]
    congr 2
    unfold absdevOf
    rw [dif_pos h]
    all_goals rfl

/-- The result array's contents: the one entry at the sum over all sixteen blocks. -/
def absdevArr (c : Dev nD) : Buf (Elt Ideal) ((c : Thread nD τ).loc main_v6) :=
  fun _ => z + ∑ k ∈ Finset.range 16, absdevOf V c k

/-- The one write-back of this accumulator, at the last point, writes the running total after the last point: the
    window's one block is the whole one-entry array. -/
theorem flushed_2 (c : Dev nD) (t : Fin cfg1.N) (hf : (cfg1.win 2).flush t = true) :
    (dat1 V c).flushed 2 t = ((cfg1.win 2).blk t).view.read (Elt Ideal) (absdevArr V c) := by
  have hN : cfg1.N = 16 := N_1
  have h15 : t.val = 15 := by have := (flush1_2 t).mp hf; have := t.isLt; omega
  obtain rfl : t = t1_15 := Fin.ext h15
  show (cfg1.win 2).cut (cfg1.grid.coords t1_15) ((dat1 V c).after 2 t1_15) = _
  rw [after1_2]
  have e : (outsAt1 V c t1_15.val t1_15.isLt) = absdevArr V c := funext fun y => absdev_after V c 15 _ y
  rw [e]
  have hz' : (fun a => win1_2.index t1_15 a * main_v6.ty.shape.size a) = fun _ => 0 := funext fun a => by fin_cases a <;> decide
  exact (Memref.read_access_unit_zero (Elt Ideal) main_v6 hz' (fun a => by rw [congrFun hz' a]; simp) (absdevArr V c)).symm

/-- So the array ends holding the total over all sixteen blocks: the last point's write-back covers its one entry. -/
theorem final_2 (c : Dev nD) : (dat1 V c).arrAt 2 cfg1.N = absdevArr V c :=
  (dat1 V c).arrAt_eq_of_cover 2 (absdevArr V c) (flushed_2 V c) fun i =>
    ⟨t1_15, (flush1_2 t1_15).mpr rfl, by
      show i ∈ ((View.whole main_v6).slice (win1_2.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_2.index t1_15 0 * win1_2.size 0 ≤ (i 0 : Nat) ∧ (i 0 : Nat) < win1_2.index t1_15 0 * win1_2.size 0 + win1_2.xsize (cfg1.grid.coords t1_15) 0
                  rw [show win1_2.index t1_15 0 * win1_2.size 0 = 0 from by decide +kernel, show win1_2.xsize (cfg1.grid.coords t1_15) 0 = 1 from by decide +kernel]; omega
      | ⟨1, _⟩ => show win1_2.index t1_15 1 * win1_2.size 1 ≤ (i 1 : Nat) ∧ (i 1 : Nat) < win1_2.index t1_15 1 * win1_2.size 1 + win1_2.xsize (cfg1.grid.coords t1_15) 1
                  rw [show win1_2.index t1_15 1 * win1_2.size 1 = 0 from by decide +kernel, show win1_2.xsize (cfg1.grid.coords t1_15) 1 = 1 from by decide +kernel]; omega⟩

end Cert.KernelIdeal.Sums1

end
-- ==== Proof.Blocks.lean ====
/-
  From blocks to arrays. A window's block at grid point t is rows 256 t … 256 t + 255 of its array, all 4096 lanes; the
  one-entry operand's block is its array. So the sixteen block totals each kernel accumulates are, regrouped, the total
  over the whole array: the first kernel's results are z + Σᵢ |aᵢ − bᵢ| and z + Σᵢ gᵢ over all entries, the second's
  z + Σᵢ |gᵢ − μ|.
-/
import proofs.«114329_j48825188221141_1_alg».proof.Proof.Region0
import proofs.«114329_j48825188221141_1_alg».proof.Proof.Region1

noncomputable section

open Idealize.ShloMosaic Idealize.ShloMosaic.TcCoe Idealize.SL.Sem Idealize.ShloMosaic.ValueIdx
open scoped BigOperators

namespace Cert.KernelIdeal.Blocks

open Cert.KernelIdeal Cert.KernelIdeal.Gen

variable (V : (c : Dev nD) → (b : Ref sig .tc) → Buf (Elt Ideal) ((c : Thread nD τ).loc b))

/-- The total of an array of extended reals. -/
def total {ι : Type} [Fintype ι] (x : ι → EReal) : EReal := ∑ i, x i

/-- A grid point as a number below sixteen. -/
def pt0 (t : Fin cfg0.N) : Fin 16 := ⟨t.val, lt_of_lt_of_eq t.isLt (show cfg0.N = 16 from N_0)⟩
def pt1 (t : Fin cfg1.N) : Fin 16 := ⟨t.val, lt_of_lt_of_eq t.isLt (show cfg1.N = 16 from N_1)⟩

/-- Entry `j` of this window's block at point `t` is the array's entry at row `256 t + j₀`, lane `j₁`. -/
theorem block0_first (c : Dev nD) (t : Fin cfg0.N) (j : S256x4096.Idx) :
    (iblk0 V c 0 t : Vec Ideal S256x4096 .f32) j = V c main_arg0 (LossSums.inBlock (pt0 t) j) := by
  have hi : win0_0.index t 0 = t.val ∧ win0_0.index t 1 = 0 :=
    (by decide +kernel : ∀ t : Fin grid0.N, win0_0.index t 0 = t.val ∧ win0_0.index t 1 = 0) t
  unfold iblk0
  rw [View.read_apply]
  show V c main_arg0 _ = V c main_arg0 _
  congr 1
  funext a
  apply Fin.ext
  match a with
  | ⟨0, _⟩ => show win0_0.index t 0 * 256 + 1 * (j 0).val = t.val * 256 + (j 0).val; rw [hi.1]; omega
  | ⟨1, _⟩ => show win0_0.index t 1 * 4096 + 1 * (j 1).val = (j 1).val; rw [hi.2]; omega

/-- Entry `j` of this window's block at point `t` is the array's entry at row `256 t + j₀`, lane `j₁`. -/
theorem block0_second (c : Dev nD) (t : Fin cfg0.N) (j : S256x4096.Idx) :
    (iblk0 V c 1 t : Vec Ideal S256x4096 .f32) j = V c main_arg2 (LossSums.inBlock (pt0 t) j) := by
  have hi : win0_1.index t 0 = t.val ∧ win0_1.index t 1 = 0 :=
    (by decide +kernel : ∀ t : Fin grid0.N, win0_1.index t 0 = t.val ∧ win0_1.index t 1 = 0) t
  unfold iblk0
  rw [View.read_apply]
  show V c main_arg2 _ = V c main_arg2 _
  congr 1
  funext a
  apply Fin.ext
  match a with
  | ⟨0, _⟩ => show win0_1.index t 0 * 256 + 1 * (j 0).val = t.val * 256 + (j 0).val; rw [hi.1]; omega
  | ⟨1, _⟩ => show win0_1.index t 1 * 4096 + 1 * (j 1).val = (j 1).val; rw [hi.2]; omega

/-- Entry `j` of this window's block at point `t` is the array's entry at row `256 t + j₀`, lane `j₁`. -/
theorem block0_third (c : Dev nD) (t : Fin cfg0.N) (j : S256x4096.Idx) :
    (iblk0 V c 2 t : Vec Ideal S256x4096 .f32) j = V c main_arg1 (LossSums.inBlock (pt0 t) j) := by
  have hi : win0_2.index t 0 = t.val ∧ win0_2.index t 1 = 0 :=
    (by decide +kernel : ∀ t : Fin grid0.N, win0_2.index t 0 = t.val ∧ win0_2.index t 1 = 0) t
  unfold iblk0
  rw [View.read_apply]
  show V c main_arg1 _ = V c main_arg1 _
  congr 1
  funext a
  apply Fin.ext
  match a with
  | ⟨0, _⟩ => show win0_2.index t 0 * 256 + 1 * (j 0).val = t.val * 256 + (j 0).val; rw [hi.1]; omega
  | ⟨1, _⟩ => show win0_2.index t 1 * 4096 + 1 * (j 1).val = (j 1).val; rw [hi.2]; omega

/-- Entry `j` of this window's block at point `t` is the array's entry at row `256 t + j₀`, lane `j₁`. -/
theorem block1_first (c : Dev nD) (t : Fin cfg1.N) (j : S256x4096.Idx) :
    (iblk1 V c 0 t : Vec Ideal S256x4096 .f32) j = V c main_arg1 (LossSums.inBlock (pt1 t) j) := by
  have hi : win1_0.index t 0 = t.val ∧ win1_0.index t 1 = 0 :=
    (by decide +kernel : ∀ t : Fin grid1.N, win1_0.index t 0 = t.val ∧ win1_0.index t 1 = 0) t
  unfold iblk1
  rw [View.read_apply]
  show V c main_arg1 _ = V c main_arg1 _
  congr 1
  funext a
  apply Fin.ext
  match a with
  | ⟨0, _⟩ => show win1_0.index t 0 * 256 + 1 * (j 0).val = t.val * 256 + (j 0).val; rw [hi.1]; omega
  | ⟨1, _⟩ => show win1_0.index t 1 * 4096 + 1 * (j 1).val = (j 1).val; rw [hi.2]; omega

/-- The one-entry operand's block at any point is the operand: its entry is the array's. -/
theorem block1_entry (c : Dev nD) (t : Fin cfg1.N) :
    (iblk1 V c 1 t : Vec Ideal S1x1 .f32) (ix2 0 0) = V c main_v5 (ix2 0 0) := by
  have hi : win1_1.index t 0 = 0 ∧ win1_1.index t 1 = 0 :=
    (by decide +kernel : ∀ t : Fin grid1.N, win1_1.index t 0 = 0 ∧ win1_1.index t 1 = 0) t
  unfold iblk1
  rw [View.read_apply]
  show V c main_v5 _ = V c main_v5 _
  congr 1
  funext a
  apply Fin.ext
  match a with
  | ⟨0, _⟩ => show win1_1.index t 0 * 1 + 1 * 0 = 0; rw [hi.1]
  | ⟨1, _⟩ => show win1_1.index t 1 * 1 + 1 * 0 = 0; rw [hi.2]

/-- The total of |a − b| over an array is the sum over the sixteen row blocks of the blocks' totals. -/
theorem absDev_by_blocks (a b : LossSums.Whole.Idx → EReal) :
    LossSums.absDev a b = ∑ t : Fin 16, LossSums.absDev (fun j : LossSums.Rows256.Idx => a (LossSums.inBlock t j))
      (fun j => b (LossSums.inBlock t j)) := by
  unfold LossSums.absDev
  exact LossSums.sum_by_blocks (fun i => max (a i - b i) (-(a i - b i)))

/-- The first kernel's first result: z plus the total of |a − b| over the whole arrays. -/
theorem absdiff_total (c : Dev nD) :
    Sums0.absdiffArr V c = fun _ => Sums0.z + LossSums.absDev (V c main_arg0) (V c main_arg2) := by
  funext y
  unfold Sums0.absdiffArr
  rw [absDev_by_blocks, Finset.sum_range]
  refine congrArg (Sums0.z + ·) (Finset.sum_congr rfl fun t _ => ?_)
  have ht : t.val < cfg0.N := lt_of_lt_of_eq t.isLt (show cfg0.N = 16 from N_0).symm
  unfold Sums0.absdiffOf
  rw [dif_pos ht]
  refine congrArg₂ LossSums.absDev (funext fun j => ?_) (funext fun j => ?_)
  · exact block0_first V c ⟨t.val, ht⟩ j
  · exact block0_second V c ⟨t.val, ht⟩ j

/-- The first kernel's second result: z plus the total of the third operand over the whole array. -/
theorem total_total (c : Dev nD) :
    Sums0.totalArr V c = fun _ => Sums0.z + total (V c main_arg1) := by
  funext y
  unfold Sums0.totalArr total
  refine congrArg (Sums0.z + ·) ?_
  refine ((Finset.sum_range (fun k => Sums0.totalOf V c k)).trans ?_).trans
    (LossSums.sum_by_blocks (M := EReal) (V c main_arg1)).symm
  refine Finset.sum_congr rfl fun t _ => ?_
  have ht : t.val < cfg0.N := lt_of_lt_of_eq t.isLt (show cfg0.N = 16 from N_0).symm
  unfold Sums0.totalOf
  rw [dif_pos ht]
  exact Finset.sum_congr rfl fun j _ => block0_third V c ⟨t.val, ht⟩ j

/-- The second kernel's result: z plus the total of |g − μ| over the whole array, μ the entry of its second operand. -/
theorem absdev_total (c : Dev nD) :
    Sums1.absdevArr V c = fun _ => Sums1.z + LossSums.absDev (V c main_arg1) (fun _ => V c main_v5 (ix2 0 0)) := by
  funext y
  unfold Sums1.absdevArr
  rw [absDev_by_blocks, Finset.sum_range]
  refine congrArg (Sums1.z + ·) (Finset.sum_congr rfl fun t _ => ?_)
  have ht : t.val < cfg1.N := lt_of_lt_of_eq t.isLt (show cfg1.N = 16 from N_1).symm
  unfold Sums1.absdevOf
  rw [dif_pos ht]
  refine congrArg₂ LossSums.absDev (funext fun j => ?_) (funext fun j => ?_)
  · exact block1_first V c ⟨t.val, ht⟩ j
  · exact block1_entry V c ⟨t.val, ht⟩

end Cert.KernelIdeal.Blocks

end
-- ==== Proof.Walk.lean ====
/-
  The result of the idealized kernel program, read through its four segments. The first kernel leaves the two totals
  z + Σ|a − b| and z + Σg in its one-entry results; the host divides both by N and hands the second quotient, μ, to the
  second kernel as a one-entry array, with g itself untouched; the second kernel leaves z + Σ|g − μ|; the host divides it
  by N, multiplies by the weight and adds the first quotient. That is the loss of the three argument arrays.
-/
import proofs.«114329_j48825188221141_1_alg».proof.Proof.Blocks
import Idealize.ShloMosaic.Lib.StableHlo.Run

noncomputable section

open Idealize.ShloMosaic Idealize.ShloMosaic.TcCoe Idealize.SL.Sem Idealize.ShloMosaic.ValueIdx Idealize.ShloMosaic.StableHlo
open scoped BigOperators

namespace Cert.KernelIdeal.Walk

open Cert.KernelIdeal Cert.KernelIdeal.Gen

variable (m : (ℓ : Loc nD τ sig) → Buf (Elt Ideal) ℓ) (ρ : Dev nD → PrngReg)

/-- The three words of the program as extended reals: what every sum starts from, the divisor of the means, the weight. -/
abbrev zero : EReal := Ideal.ofBits .f32 0x00000000#32
abbrev count : EReal := Ideal.ofBits .f32 0x4B800000#32
abbrev weight : EReal := Ideal.ofBits .f32 0x42C80000#32

/-- After the first kernel its first result holds z + Σ|a − b| over the whole first and second operand arrays … -/
theorem exit0_absdiff (c : Dev nD) : W1 m ρ c (Proc.devRef .tc main_v0_0)
    = fun _ => zero + LossSums.absDev (m ((c : Thread nD τ).loc main_arg0)) (m ((c : Thread nD τ).loc main_arg2)) :=
  (W1_arr m ρ c 3).trans ((Sums0.final_3 (V0 m ρ) c).trans (Blocks.absdiff_total (V0 m ρ) c))

/-- … and its second result z + Σg over the whole third operand array. -/
theorem exit0_total (c : Dev nD) : W1 m ρ c (Proc.devRef .tc main_v0_1)
    = fun _ => zero + Blocks.total (m ((c : Thread nD τ).loc main_arg1)) :=
  (W1_arr m ρ c 4).trans ((Sums0.final_4 (V0 m ρ) c).trans (Blocks.total_total (V0 m ρ) c))

/-- The second kernel finds g as launched: neither the first kernel nor the host operations write it. -/
theorem entry1_g (c : Dev nD) : V2 m ρ c main_arg1 = m ((c : Thread nD τ).loc main_arg1) := by
  show StableHlo.after hostOps1 (W1 m ρ c) (Proc.devRef .tc main_arg1) = _
  after_results
  exact (W1_arr m ρ c 2).trans (((dat0 (V0 m ρ) c).arrAt_in 2 rfl _).trans (A_eq0 (V0 m ρ) c 2))

/-- The second kernel's one-entry operand holds μ = (z + Σg) / N. -/
theorem entry1_mean (c : Dev nD) : V2 m ρ c main_v5 (ix2 0 0)
    = Ideal.div (zero + Blocks.total (m ((c : Thread nD τ).loc main_arg1))) count := by
  have e : V2 m ρ c main_v5 = shapeCast S1x1 (Host.divf (F := Ideal)
      (shapeCast S_ (W1 m ρ c (Proc.devRef .tc main_v0_1)) shapeCasts_S1x1_S_) (constant (F := Ideal) S_ .f32 0x4B800000#32))
      shapeCasts_S_S1x1 := by
    show StableHlo.after hostOps1 (W1 m ρ c) (Proc.devRef .tc main_v5) = _
    after_results
    rfl
  rw [e, exit0_total]
  rfl

/-- After the second kernel its result holds z + Σ|g − μ| over the whole array. -/
theorem exit1_absdev (c : Dev nD) : W3 m ρ c (Proc.devRef .tc main_v6)
    = fun _ => zero + LossSums.absDev (m ((c : Thread nD τ).loc main_arg1))
        (fun _ => Ideal.div (zero + Blocks.total (m ((c : Thread nD τ).loc main_arg1))) count) :=
  (W3_arr m ρ c 2).trans ((Sums1.final_2 (V2 m ρ) c).trans ((Blocks.absdev_total (V2 m ρ) c).trans (by
    rw [entry1_g, entry1_mean]
    rfl)))

/-- The first quotient, (z + Σ|a − b|) / N, is still in place after the second kernel, which does not touch it. -/
theorem kept_absdiff_mean (c : Dev nD) : W3 m ρ c (Proc.devRef .tc main_v2)
    = fun _ => Ideal.div (zero + LossSums.absDev (m ((c : Thread nD τ).loc main_arg0)) (m ((c : Thread nD τ).loc main_arg2))) count := by
  rw [W3_of_ne m ρ c main_v2 (by decide)]
  show StableHlo.after hostOps1 (W1 m ρ c) (Proc.devRef .tc main_v2) = _
  after_results
  rw [exit0_absdiff]
  rfl

/-- The program's result is the loss of its three argument arrays. -/
theorem result_value (c : Dev nD) : W4 m ρ c (Proc.devRef .tc main_v10)
    = fun _ => LossSums.loss zero count weight (m ((c : Thread nD τ).loc main_arg0)) (m ((c : Thread nD τ).loc main_arg1))
        (m ((c : Thread nD τ).loc main_arg2)) := by
  show StableHlo.after hostOps2 (W3 m ρ c) (Proc.devRef .tc main_v10) = _
  after_results
  rw [kept_absdiff_mean, exit1_absdev]
  rfl

end Cert.KernelIdeal.Walk

end
-- ==== Proof.RefValue.lean ====
/-
  The reference computes the loss. Read one operation at a time at the exact values, its result is
  (z + Σᵢ |rᵢ − tᵢ|) / N + c · ((z + Σₖ |g′ₖ − μ|) / N) with μ = (z + Σₖ g′ₖ) / N, where g′ is g flattened to 16 777 216
  entries and the first total runs over the 4096 × 4096 entries directly. Flattening is a bijection of the entries, so
  the two totals over g′ are totals over g, and the result is the loss.
-/
import proofs.«114329_j48825188221141_1_alg».proof.Proof.Gen.ReferenceIdeal.Read
import proofs.«114329_j48825188221141_1_alg».proof.Proof.LossSums

noncomputable section

namespace Cert.ReferenceIdeal.RefValue

open Cert.ReferenceIdeal Cert.ReferenceIdeal.Read Idealize.ShloMosaic
open scoped BigOperators

/-- The three words of the program as extended reals: what every sum starts from, the divisor of the means, the weight. -/
abbrev zero : EReal := Ideal.ofBits .f32 0x00000000#32
abbrev count : EReal := Ideal.ofBits .f32 0x4B800000#32
abbrev weight : EReal := Ideal.ofBits .f32 0x42C80000#32

/-- The total of the flattened array is the total of the array. -/
theorem flat_total (g : (⟨S4096x4096, .f32⟩ : BufTy).Contents (Elt Ideal)) :
    ∑ k : S16777216.Idx, val_main_v4 (F := Ideal) g k = ∑ i : S4096x4096.Idx, g i := by
  simp only [val_main_v4_apply]
  exact LossSums.sum_flat idx_main_v4 (fun _ => rfl) (fun _ => rfl) g

/-- The total of |g′ − μ| over the flattened array is the total of |g − μ| over the array. -/
theorem flat_absdev (g : (⟨S4096x4096, .f32⟩ : BufTy).Contents (Elt Ideal)) (mu : EReal) :
    ∑ k : S16777216.Idx, max (val_main_v4 (F := Ideal) g k - mu) (-(val_main_v4 (F := Ideal) g k - mu))
      = LossSums.absDev g (fun _ => mu) := by
  simp only [val_main_v4_apply]
  exact LossSums.sum_flat idx_main_v4 (fun _ => rfl) (fun _ => rfl) (fun i => max (g i - mu) (-(g i - mu)))

/-- The reference's result is the loss of its three arguments: stage by stage, the mean absolute difference, the mean
    of the flattened g, the deviations from it, their mean, the weighted sum. -/
theorem reference_is_loss (r g t : (⟨S4096x4096, .f32⟩ : BufTy).Contents (Elt Ideal)) (i : S_.Idx) :
    val_main_v13 (F := Ideal) r g t i = LossSums.loss zero count weight r g t := by
  have e2 : val_main_v2 (F := Ideal) r t i = zero + LossSums.absDev r t := by
    rw [val_main_v2_apply]
    exact congrArg (zero + ·) (Finset.sum_congr rfl fun j _ => rfl)
  have e6 : ∀ i' : S_.Idx, val_main_v6 (F := Ideal) g i' = Ideal.div (zero + ∑ i : S4096x4096.Idx, g i) count := fun i' => by
    rw [val_main_v6_apply, val_main_v5_apply, flat_total]
    rfl
  have e9 : ∀ k : S16777216.Idx, val_main_v9 (F := Ideal) g k
      = max (val_main_v4 (F := Ideal) g k - Ideal.div (zero + ∑ i : S4096x4096.Idx, g i) count)
          (-(val_main_v4 (F := Ideal) g k - Ideal.div (zero + ∑ i : S4096x4096.Idx, g i) count)) := fun k => by
    rw [val_main_v9_apply, val_main_v8_apply, val_main_v7_apply, e6]
    rfl
  have e10 : val_main_v10 (F := Ideal) g i
      = zero + LossSums.absDev g (fun _ => Ideal.div (zero + ∑ i : S4096x4096.Idx, g i) count) := by
    rw [val_main_v10_apply]
    refine congrArg (zero + ·) ((Finset.sum_congr rfl fun k _ => e9 k).trans ?_)
    exact flat_absdev g _
  rw [val_main_v13_apply, val_main_v3_apply, val_main_v12_apply, val_main_v11_apply, e2, e10]
  rfl

end Cert.ReferenceIdeal.RefValue

end
-- ==== Proof.lean ====
/-
  The loss  mean|r − t| + 100 · mean|g − mean g|  of three 4096 × 4096 arrays, computed two ways: by two kernels that each
  walk sixteen blocks of 256 full rows and keep running totals (Σ|r − t| and Σg in the first; Σ|g − μ| in the second, with
  μ = Σg / N handed over by the host between them), and by a reference that takes the same three totals over the whole
  arrays (g flattened to one axis). At the exact values every total is a finite sum in a commutative monoid, so the
  grouping into rows, lanes and blocks and the flattening change nothing; the divisions by N = 2²⁴, the weight 100 and
  the starting word 0 are the same words on both sides. Hence the two results are equal extended reals, whatever the
  entries are.

  The three frames: the two kernel programs by their generated frame theorems, the reference by its generated run. The
  idealization rewrote no operation, so the preservation claim is trivial. The value claim: the kernel program's run
  with its result named (KernelRun), that result read through the two kernels and the host operations between and after
  them (Region0, Region1, Blocks, Walk), and the reference's result read stage by stage (RefValue), both the function
  LossSums.loss of the arguments.
-/
import proofs.«114329_j48825188221141_1_alg».proof.Defs
import proofs.«114329_j48825188221141_1_alg».proof.Proof.Gen.Kernel
import proofs.«114329_j48825188221141_1_alg».proof.Proof.Gen.Kernel.Skeleton
import proofs.«114329_j48825188221141_1_alg».proof.Proof.Gen.Kernel.Launch
import proofs.«114329_j48825188221141_1_alg».proof.Proof.Gen.Kernel.Points
import proofs.«114329_j48825188221141_1_alg».proof.Proof.Gen.Kernel.Frame
import proofs.«114329_j48825188221141_1_alg».proof.Proof.Gen.KernelIdeal
import proofs.«114329_j48825188221141_1_alg».proof.Proof.Gen.KernelIdeal.Skeleton
import proofs.«114329_j48825188221141_1_alg».proof.Proof.Gen.KernelIdeal.Launch
import proofs.«114329_j48825188221141_1_alg».proof.Proof.Gen.KernelIdeal.Points
import proofs.«114329_j48825188221141_1_alg».proof.Proof.Gen.KernelIdeal.Frame
import proofs.«114329_j48825188221141_1_alg».proof.Proof.Gen.ReferenceIdeal
import proofs.«114329_j48825188221141_1_alg».proof.Proof.Gen.Pre_finite_inputs
import proofs.«114329_j48825188221141_1_alg».proof.Proof.Gen.ReferenceIdeal.Run
import proofs.«114329_j48825188221141_1_alg».proof.Proof.Gen.ReferenceIdeal.Read
import proofs.«114329_j48825188221141_1_alg».proof.Proof.KernelRun
import proofs.«114329_j48825188221141_1_alg».proof.Proof.Walk
import proofs.«114329_j48825188221141_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the (agreeing) argument arrays in their result. -/
theorem algebraic : Cert.algebraic_KernelIdeal_ReferenceIdeal := by
  intro m ρ m' ρ' _ hagree
  refine ⟨fun c => fun _ => LossSums.loss Cert.KernelIdeal.Walk.zero Cert.KernelIdeal.Walk.count Cert.KernelIdeal.Walk.weight
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Walk.result_value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, (hagree c).1, (hagree c).2.1, (hagree c).2.2]
    funext i
    exact Cert.ReferenceIdeal.RefValue.reference_is_loss _ _ _ i

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
